-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩
abbrev S4000 : Shape := ⟨1, ![4000]⟩
abbrev S4000x1 : Shape := ⟨2, ![4000, 1]⟩

abbrev nBuf : Space → Nat
  | .hbm => 75
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S100000x128, .f32⟩
  | .hbm, ⟨57, _⟩ => ⟨S100000x16, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x16, .f32⟩
  | .hbm, ⟨67, _⟩ => ⟨S1700000x1, .f32⟩
  | .hbm, ⟨68, _⟩ => ⟨S1700000x16, .f32⟩
  | .hbm, ⟨69, _⟩ => ⟨S1700000x16, .f32⟩
  | .hbm, ⟨70, _⟩ => ⟨S_, .f32⟩
  | .hbm, ⟨71, _⟩ => ⟨S100000x16, .f32⟩
  | .hbm, ⟨72, _⟩ => ⟨S1700000x1, .i32⟩
  | .hbm, ⟨73, _⟩ => ⟨S100000x16, .f32⟩
  | .hbm, ⟨74, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S16, .f32⟩
  | .local _ .vmem, ⟨18, _⟩ => ⟨S4000x16, .f32⟩
  | .local _ .vmem, ⟨19, _⟩ => ⟨S4000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S4000x128 : S1x128.Broadcasts S4000x128
  shapeCasts_S4000x128_S4000x128 : S4000x128.ShapeCasts S4000x128
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S4000x16 : S1x16.Broadcasts S4000x16
  shapeCasts_S4000x16_S4000x16 : S4000x16.ShapeCasts S4000x16
  reduces_S4000x16_S4000 : S4000x16.Reduces [1] S4000
  shapeCasts_S4000_S4000x1 : S4000.ShapeCasts S4000x1
  broadcasts_S4000x1_S4000x16 : S4000x1.Broadcasts S4000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x16_S4000x16_1_0_0_1_n_n_wf : DotDims.WF S4000x128 S128x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x16, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x16, .f32⟩
  | .hbm, ⟨91, _⟩ => ⟨S1700000x1, .f32⟩
  | .hbm, ⟨92, _⟩ => ⟨S1700000x16, .f32⟩
  | .hbm, ⟨93, _⟩ => ⟨S1700000x16, .f32⟩
  | .hbm, ⟨94, _⟩ => ⟨S_, .f32⟩
  | .hbm, ⟨95, _⟩ => ⟨S100000x16, .f32⟩
  | .hbm, ⟨96, _⟩ => ⟨S1700000x1, .i32⟩
  | .hbm, ⟨97, _⟩ => ⟨S100000x16, .f32⟩
  | .hbm, ⟨98, _⟩ => ⟨S1x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x16, .f32⟩
  | .hbm, ⟨108, _⟩ => ⟨S100000x16, .f32⟩
  | .hbm, ⟨109, _⟩ => ⟨S100000x16, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x16, .f32⟩
  | .hbm, ⟨115, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  dot_S100000x256_S256x128_S100000x128_1_0_0_1_n_n_wf : DotDims.WF S100000x256 S256x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Product1.lean ====
/-
  The first kernel launch: the feature product, block by block.

  The launch walks 25 grid points.  At point t the body loads rows 4000·t … 4000·t + 3999 of its left array (all 256
  columns) and the whole right array [256, 128], rounds both to bf16 — a change of format, the identity on the
  extended reals — multiplies them into a zero accumulator and stores the [4000, 128] product, which is written back
  to rows 4000·t … of the output.  An entry (p, j) of that block is the sum over q < 256 of left (4000·t + p, q) ·
  right (q, j): exactly entry (4000·t + p, j) of the whole product of the two arrays, the reference's
  `dot_general` stage.  The 25 blocks tile the 100000 rows, so after the launch the output array IS that stage of the
  two arrays the launch found.
-/
import proofs.«117803_j45509473469206_1_alg».proof.Proof.Gen.KernelIdeal.Frame
import proofs.«117803_j45509473469206_1_alg».proof.Proof.RefRead
import proofs.«117803_j45509473469206_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (p, j) of the body's product: the sum over the 256 contracted positions. -/
theorem pay_apply (x0 : Vec Ideal S4000x256 .f32) (x1 : Vec Ideal S256x128 .f32) (p : Fin 4000) (j : Fin 128) :
    k0_pay1 x0 x1 (ix2 p j) = ∑ q : Fin 256, x0 (ix2 p q) * x1 (ix2 q j) := by
  unfold k0_pay1
  exact Cert.PlainDot.matmul_zero_ix2 (m := 4000) (k := 256) (n := 128) dot_S4000x256_S256x128_S4000x128_1_0_0_1_n_n rfl none
    (truncf .bf16 x0 bitsLt_bf16_f32) (truncf .bf16 x1 bitsLt_bf16_f32) p j

/-- The index maps over the grid: the left block and the output block sit at row block t, the right array is whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point t writes back is block t of the whole product of the two arrays the launch found. -/
theorem flushed_eq (c : Dev nD) (t : Fin cfg0.N) :
    (dat0 V c).flushed 2 t = ((cfg0.win 2).blk t).view.read (Elt Ideal)
      (Cert.ReferenceIdeal.Read.val_main_v12 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S4000x256) hz2, View.ld_unit_zero (S := S256x128) hz2]
  obtain ⟨e0, e1, e2, e3, e4, e5⟩ := idx_facts t
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = Cert.ReferenceIdeal.Read.val_main_v12 (F := Ideal) (V c main_arg0) (V c main_arg2) (((cfg0.win 2).blk t).view.emb (ix2 p q))
  rw [pay_apply, Cert.ReferenceIdeal.Read.val_main_v12_apply]
  refine Finset.sum_congr rfl fun k _ => ?_
  have hl : ((cfg0.win 0).blk t).view.emb (ix2 p k)
      = Cert.ReferenceIdeal.Read.lidx_main_v12 (((cfg0.win 2).blk t).view.emb (ix2 p q)) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  have hr : ((cfg0.win 1).blk t).view.emb (ix2 k q)
      = Cert.ReferenceIdeal.Read.ridx_main_v12 (((cfg0.win 2).blk t).view.emb (ix2 p q)) k := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [← hl, ← hr]
  rfl

/-- An index is in point t's output block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v27).slice (win0_2.rect t)).set ↔ _
  rw [View.set_slice_whole, Rect.mem_set_unit]
  exact Iff.rfl

/-- The 25 output blocks tile the array: row r lies in the block of point r / 4000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the launch the output array is the whole product of the two arrays the launch found. -/
theorem array_eq (c : Dev nD) :
    (dat0 V c).arrAt 2 cfg0.N = Cert.ReferenceIdeal.Read.val_main_v12 (F := Ideal) (V c main_arg0) (V c main_arg2) :=
  (dat0 V c).arrAt_eq_of_cover 2 _ (fun t _ => flushed_eq V c t) cover

end Cert.KernelIdeal.Product1

end
-- ==== Proof.ChainA.lean ====
/-
  The kernel program's buffers, boundary by boundary: the first half.

  The program is a chain: host operations, a launch, host operations, two launches, host operations, a launch.  At
  each boundary the buffers that are still to be read hold named functions of the six argument arrays — the same
  functions the reference program computes stage by stage.  After the first host stretch: the source and target index
  vectors (the edge rows with the self loops appended) and the per-edge scale, the product of the two gathered
  inverse square roots of the degrees.  After the first launch: the feature product.  After the second host stretch:
  the aggregate, every edge's gathered row scaled and summed into its target row.  A buffer that a stretch or a
  launch does not write keeps its contents across it.
-/
import proofs.«117803_j45509473469206_1_alg».proof.Proof.Gen.KernelIdeal.Frame
import proofs.«117803_j45509473469206_1_alg».proof.Proof.RefRead
import proofs.«117803_j45509473469206_1_alg».proof.Proof.Product1
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the first host stretch -/

/-- The source indices: the first edge row, then 0 … 99999. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The target indices: the second edge row, then 0 … 99999. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl

/-- The per-edge scale: the inverse square root of the degree at the source times that at the target. -/
theorem W1_v26 (c : Dev nD) : W1 m ρ c (Proc.devRef .tc main_v26) = val_main_v27 (F := Ideal) (m ((c : Thread nD τ).loc main_arg1)) := by
  show StableHlo.after hostOps0 (W0 m ρ c) (Proc.devRef .tc main_v26) = _
  after_results_simp
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

/-! ## After the first launch -/

/-- The feature product of the first two float arguments. -/
theorem W2_v27 (c : Dev nD) : W2 m ρ c (Proc.devRef .tc main_v27) = val_main_v12 (F := Ideal) (m ((c : Thread nD τ).loc main_arg0)) (m ((c : Thread nD τ).loc main_arg2)) := by
  have h := (W2_arr m ρ c 2).trans (Cert.KernelIdeal.Product1.array_eq (V1 m ρ) c)
  rw [show V1 m ρ c main_arg0 = (m ((c : Thread nD τ).loc main_arg0)) from W1_arg0 m ρ c, show V1 m ρ c main_arg2 = (m ((c : Thread nD τ).loc main_arg2)) from W1_arg2 m ρ c] at h
  exact h

theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)

theorem W2_v6 (c : Dev nD) : W2 m ρ c (Proc.devRef .tc main_v6) = val_main_v6 (F := Ideal) (m ((c : Thread nD τ).loc main_arg1)) :=
  (W2_of_ne m ρ c main_v6 (by decide)).trans (W1_v6 m ρ c)

theorem W2_v26 (c : Dev nD) : W2 m ρ c (Proc.devRef .tc main_v26) = val_main_v27 (F := Ideal) (m ((c : Thread nD τ).loc main_arg1)) :=
  (W2_of_ne m ρ c main_v26 (by decide)).trans (W1_v26 m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

/-! ## After the second host stretch -/

/-- The first aggregate: each edge's gathered product row, scaled, summed into its target row. -/
theorem W3_v40 (c : Dev nD) : W3 m ρ c (Proc.devRef .tc main_v40) = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v27 m ρ c, W2_v3 m ρ c, W2_v6 m ρ c, W2_v26 m ρ c]
  rfl

theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact W2_v3 m ρ c

theorem W3_v6 (c : Dev nD) : W3 m ρ c (Proc.devRef .tc main_v6) = val_main_v6 (F := Ideal) (m ((c : Thread nD τ).loc main_arg1)) := by
  show StableHlo.after hostOps1 (W2 m ρ c) (Proc.devRef .tc main_v6) = _
  after_results_simp
  exact W2_v6 m ρ c

theorem W3_v26 (c : Dev nD) : W3 m ρ c (Proc.devRef .tc main_v26) = val_main_v27 (F := Ideal) (m ((c : Thread nD τ).loc main_arg1)) := by
  show StableHlo.after hostOps1 (W2 m ρ c) (Proc.devRef .tc main_v26) = _
  after_results_simp
  exact W2_v26 m ρ c

theorem W3_arg3 (c : Dev nD) : W3 m ρ c (Proc.devRef .tc main_arg3) = (m ((c : Thread nD τ).loc main_arg3)) := by
  show StableHlo.after hostOps1 (W2 m ρ c) (Proc.devRef .tc main_arg3) = _
  after_results_simp
  exact W2_arg3 m ρ c

theorem W3_arg4 (c : Dev nD) : W3 m ρ c (Proc.devRef .tc main_arg4) = (m ((c : Thread nD τ).loc main_arg4)) := by
  show StableHlo.after hostOps1 (W2 m ρ c) (Proc.devRef .tc main_arg4) = _
  after_results_simp
  exact W2_arg4 m ρ c

theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c

end Cert.KernelIdeal.Chain

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.BiasRelu.lean ====
/-
  The bias and the rectifier, one block of rows at a time.

  The launch has 25 grid points.  At point t the body reads rows 4000·t … 4000·t + 3999 of its input array (128
  columns each) and the whole bias vector of length 128.  The bias is recast to a single row [1, 128] and that row is
  repeated down the 4000 rows; the block (recast to the shape it already has) and the repeated row are added, and the
  sum is compared entry by entry with the real number that the all-zero 32-bit word encodes, the larger one being
  kept.  Entry (p, j) of the result is therefore max (input (4000·t + p, j) + bias j, zero word), and this is what
  the reference computes at entry (4000·t + p, j) of the whole array: the bias broadcast to a row and then to all
  rows, an addition, and a maximum with the broadcast zero scalar.  The block is written back to rows 4000·t … of the
  output, and the 25 row blocks tile the 100000 rows.  So when the input array the launch finds is the reference's
  aggregation stage and the bias array is the reference's bias argument, the output array after the launch is the
  reference's rectified stage.
-/
import proofs.«117803_j45509473469206_1_alg».proof.Proof.Gen.KernelIdeal.Frame
import proofs.«117803_j45509473469206_1_alg».proof.Proof.RefRead
import proofs.«117803_j45509473469206_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- Entry (p, j) of the body's result: the input entry plus the bias of its column, or the value of the zero word
    if that is larger. -/
theorem pay_apply (b : Vec Ideal S128 .f32) (x : Vec Ideal S4000x128 .f32) (p : Fin 4000) (j : Fin 128) :
    k1_pay1 b x (ix2 p j) = max (x (ix2 p j) + b (ix1 j)) (Ideal.ofBits .f32 0x00000000#32) := by
  unfold k1_pay1
  rw [shapeCast_self (s := S1x128), shapeCast_self (s := S4000x128)]
  rw [maximumf_apply, addf_apply, broadcast_apply,
    Cert.LibRowBroadcast.broadcastTo_1b_ab_apply (a := 4000) (b := 128),
    shapeCast_addUnit_apply (n := 1) ![128]]
  have hj : (fun a : Fin 1 => (ix2 (0 : Fin 1) j) a.succ) = ix1 j := by
    funext a; match a with | ⟨0, _⟩ => rfl
  rw [hj]
  rfl

/-- The index maps over the grid: the input block and the output block sit at row block t, the bias is whole. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0)

/-- The part of a full block that is written back is the block itself: no block of this launch overhangs the array. -/
theorem cut_apply (t : Fin cfg1.N) (Y : Vec Ideal S4000x128 .f32) (p : Fin 4000) (q : Fin 128) :
    (cfg1.win 2).cut (grid1.coords t) Y (ix2 p q) = Y (ix2 p q) := rfl

/-- Block t of a whole array, at (p, q), is the array at the block's position of (p, q). -/
theorem read_apply (t : Fin cfg1.N) (Z : (⟨S100000x128, .f32⟩ : BufTy).Contents (Elt Ideal)) (p : Fin 4000) (q : Fin 128) :
    ((cfg1.win 2).blk t).view.read (Elt Ideal) Z (ix2 p q) = Z (((cfg1.win 2).blk t).view.emb (ix2 p q)) := rfl

/-- What point t writes back is block t of the whole rectified array, once the two arrays the launch finds are named. -/
theorem flushed_eq (c : Dev nD)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (hA : V c main_v40 = Cert.ReferenceIdeal.Read.val_main_v40 (F := Ideal) x0 x1 x2)
    (hb : V c main_arg3 = x3) (t : Fin cfg1.N) :
    (dat1 V c).flushed 2 t = ((cfg1.win 2).blk t).view.read (Elt Ideal)
      (Cert.ReferenceIdeal.Read.val_main_v44 (F := Ideal) x0 x1 x2 x3) := by
  show (cfg1.win 2).cut (grid1.coords t) ((dat1 V c).after 2 t) = _
  rw [after1_2]
  unfold out1_2
  rw [View.canon_unit_zero hz2]
  simp only [View.ld_unit_zero (S := S4000x128) hz2, View.ld_unit_zero (S := S128) hz1]
  obtain ⟨e0, e1, e2, e3, e4⟩ := idx_facts t
  funext j
  obtain ⟨p, q, rfl⟩ : ∃ (p : Fin 4000) (q : Fin 128), j = ix2 p q := ⟨j 0, j 1, eq_ix2 j⟩
  rw [cut_apply, read_apply, pay_apply, Cert.ReferenceIdeal.Read.val_main_v44_apply,
    Cert.ReferenceIdeal.Read.val_main_v43_apply, Cert.ReferenceIdeal.Read.val_main_v42_apply,
    Cert.ReferenceIdeal.Read.val_main_v41_apply, Cert.ReferenceIdeal.Read.val_main_call0_v0_apply,
    Cert.ReferenceIdeal.Read.val_main_call0_cst_apply]
  show @Eq EReal _ _
  have hl : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  have hr : ((cfg1.win 1).blk t).view.emb (ix1 q)
      = Cert.ReferenceIdeal.Read.idx_main_v41 (Cert.ReferenceIdeal.Read.idx_main_v42 (((cfg1.win 2).blk t).view.emb (ix2 p q))) := by
    funext a; apply Fin.ext
    match a with
    | ⟨0, _⟩ => show win1_1.index t (0 : Fin 1) * 128 + 1 * q.val = win1_2.index t (1 : Fin 2) * 128 + 1 * q.val; omega
  rw [← hr, ← hl, ← hA, ← hb]
  rfl

/-- An index is in point t's output block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v41).slice (win1_2.rect t)).set ↔ _
  rw [View.set_slice_whole, Rect.mem_set_unit]
  exact Iff.rfl

/-- The 25 output blocks tile the array: row r lies in the block of point r / 4000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e0, e1, e2, e3, e4⟩ := idx_facts t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After the launch the output array is the reference's rectified stage, given what the launch found. -/
theorem array_eq (c : Dev nD)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (hA : V c main_v40 = Cert.ReferenceIdeal.Read.val_main_v40 (F := Ideal) x0 x1 x2)
    (hb : V c main_arg3 = x3) :
    (dat1 V c).arrAt 2 cfg1.N = Cert.ReferenceIdeal.Read.val_main_v44 (F := Ideal) x0 x1 x2 x3 :=
  (dat1 V c).arrAt_eq_of_cover 2 _ (fun t _ => flushed_eq V c x0 x1 x2 x3 hA hb t) cover

end Cert.KernelIdeal.BiasRelu

end
-- ==== Proof.Product2.lean ====
/-
  The second product: hidden features times the output weights, one block of rows at a time.

  The launch has 25 grid points.  At point t the body reads rows 4000·t … 4000·t + 3999 of the hidden array (128
  columns each) and the whole weight array [128, 16].  It recasts the block to the shape it already has (nothing
  moves), changes both operands to bf16 — on the extended reals a change of format only, every value stays what it
  was — and multiplies them into an accumulator of zeros.  Entry (p, j) of the [4000, 16] result is therefore the sum
  over q < 128 of hidden (4000·t + p, q) · weight (q, j), which is entry (4000·t + p, j) of the product of the two
  whole arrays.  The result is written back to rows 4000·t … of the output, and the 25 row blocks tile the 100000
  rows without gap.  So when the hidden array the launch finds is the rectified stage of the reference and the weight
  array is the reference's weight argument, the output array after the launch is the reference's second
  `dot_general` stage.
-/
import proofs.«117803_j45509473469206_1_alg».proof.Proof.Gen.KernelIdeal.Frame
import proofs.«117803_j45509473469206_1_alg».proof.Proof.RefRead
import proofs.«117803_j45509473469206_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (p, j) of the body's product: the sum over the 128 contracted positions.  The recast to the same shape
    and the two changes of format leave every entry as it is. -/
theorem pay_apply (x0 : Vec Ideal S4000x128 .f32) (x1 : Vec Ideal S128x16 .f32) (p : Fin 4000) (j : Fin 16) :
    k2_pay1 x0 x1 (ix2 p j) = ∑ q : Fin 128, x0 (ix2 p q) * x1 (ix2 q j) := by
  unfold k2_pay1
  rw [shapeCast_self]
  exact Cert.PlainDot.matmul_zero_ix2 (m := 4000) (k := 128) (n := 16) dot_S4000x128_S128x16_S4000x16_1_0_0_1_n_n rfl none
    (truncf .bf16 x0 bitsLt_bf16_f32) (truncf .bf16 x1 bitsLt_bf16_f32) p j

/-- The index maps over the grid: the left block and the output block sit at row block t, the right array is whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The part of a full block that is written back is the block itself: no block of this launch overhangs the array. -/
theorem cut_apply (t : Fin cfg2.N) (Y : Vec Ideal S4000x16 .f32) (p : Fin 4000) (q : Fin 16) :
    (cfg2.win 2).cut (grid2.coords t) Y (ix2 p q) = Y (ix2 p q) := rfl

/-- Block t of a whole array, at (p, q), is the array at the block's position of (p, q). -/
theorem read_apply (t : Fin cfg2.N) (Z : (⟨S100000x16, .f32⟩ : BufTy).Contents (Elt Ideal)) (p : Fin 4000) (q : Fin 16) :
    ((cfg2.win 2).blk t).view.read (Elt Ideal) Z (ix2 p q) = Z (((cfg2.win 2).blk t).view.emb (ix2 p q)) := rfl

/-- What point t writes back is block t of the whole product, once the two arrays the launch finds are named. -/
theorem flushed_eq (c : Dev nD)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (hA : V c main_v41 = Cert.ReferenceIdeal.Read.val_main_v44 (F := Ideal) x0 x1 x2 x3)
    (hW : V c main_arg4 = x4) (t : Fin cfg2.N) :
    (dat2 V c).flushed 2 t = ((cfg2.win 2).blk t).view.read (Elt Ideal)
      (Cert.ReferenceIdeal.Read.val_main_v45 (F := Ideal) x0 x1 x2 x3 x4) := by
  show (cfg2.win 2).cut (grid2.coords t) ((dat2 V c).after 2 t) = _
  rw [after2_2]
  unfold out2_2
  rw [View.canon_unit_zero hz2]
  simp only [View.ld_unit_zero (S := S4000x128) hz2, View.ld_unit_zero (S := S128x16) hz2]
  obtain ⟨e0, e1, e2, e3, e4, e5⟩ := idx_facts t
  funext j
  obtain ⟨p, q, rfl⟩ : ∃ (p : Fin 4000) (q : Fin 16), j = ix2 p q := ⟨j 0, j 1, eq_ix2 j⟩
  rw [cut_apply, read_apply, pay_apply, Cert.ReferenceIdeal.Read.val_main_v45_apply]
  show @Eq EReal _ _
  refine Finset.sum_congr rfl fun k _ => ?_
  have hl : ((cfg2.win 0).blk t).view.emb (ix2 p k)
      = Cert.ReferenceIdeal.Read.lidx_main_v45 (((cfg2.win 2).blk t).view.emb (ix2 p q)) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have hr : ((cfg2.win 1).blk t).view.emb (ix2 k q)
      = Cert.ReferenceIdeal.Read.ridx_main_v45 (((cfg2.win 2).blk t).view.emb (ix2 p q)) k := by
    funext a; apply Fin.ext
    match a with
    | ⟨0, _⟩ => show win2_1.index t (0 : Fin 2) * 128 + 1 * k.val = k.val; omega
    | ⟨1, _⟩ => show win2_1.index t (1 : Fin 2) * 16 + 1 * q.val = win2_2.index t (1 : Fin 2) * 16 + 1 * q.val; omega
  rw [← hl, ← hr, ← hA, ← hW]
  rfl

/-- An index is in point t's output block iff each coordinate is in the block's range on its axis. -/
theorem mem_blk (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v42).slice (win2_2.rect t)).set ↔ _
  rw [View.set_slice_whole, Rect.mem_set_unit]
  exact Iff.rfl

/-- The 25 output blocks tile the array: row r lies in the block of point r / 4000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 25 := N_2
  let t : Fin cfg2.N := ⟨(i 0).val / 4000, by rw [hN]; omega⟩
  obtain ⟨e0, e1, e2, e3, e4, e5⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 16 ≤ (i 1).val ∧ (i 1).val < win2_2.index t (1 : Fin 2) * 16 + 16; omega

/-- After the launch the output array is the reference's second product stage, given what the launch found. -/
theorem array_eq (c : Dev nD)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (hA : V c main_v41 = Cert.ReferenceIdeal.Read.val_main_v44 (F := Ideal) x0 x1 x2 x3)
    (hW : V c main_arg4 = x4) :
    (dat2 V c).arrAt 2 cfg2.N = Cert.ReferenceIdeal.Read.val_main_v45 (F := Ideal) x0 x1 x2 x3 x4 :=
  (dat2 V c).arrAt_eq_of_cover 2 _ (fun t _ => flushed_eq V c x0 x1 x2 x3 x4 hA hW t) cover

end Cert.KernelIdeal.Product2

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LogSoftmax.lean ====
/-
  The fourth kernel launch: the bias and the log-softmax, block by block.

  The launch walks 25 grid points.  At point t the body loads rows 4000·t … 4000·t + 3999 of its input array (all 16
  columns) and the whole bias [16], adds the bias to every row, and from each row r of the result takes
  r j − M − log (∑ k, exp (r k − M)), where M is the largest of the row's sixteen entries (a fold of the maximum
  starting from minus infinity); the [4000, 16] result is written back to rows 4000·t … of the output.  The
  reference does the same to whole arrays: it adds the bias to every row of the [100000, 16] array of scattered sums,
  and its log-softmax takes, row by row, the same maximum (the larger of minus infinity and the fold, which is the
  fold), the same shifted row, the same sum of exponentials (added to a zero, which changes nothing) and the same
  logarithm.  A row's result depends on that row alone, so entry (p, j) of block t is entry (4000·t + p, j) of the
  reference's stage; the 25 blocks tile the 100000 rows, so after the launch the output array IS that stage, given
  that the launch found the scattered sums in its input array and the bias in its bias array.
-/
import proofs.«117803_j45509473469206_1_alg».proof.Proof.Gen.KernelIdeal.Frame
import proofs.«117803_j45509473469206_1_alg».proof.Proof.RefRead
import proofs.«117803_j45509473469206_1_alg».proof.Proof.LibRank3
import proofs.«117803_j45509473469206_1_alg».proof.Proof.LibKeepdims
import proofs.«117803_j45509473469206_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.LogSoftmax

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The largest entry of a row of sixteen, folded from the value of the accumulator's word. -/
def rowMax (r : Fin 16 → EReal) : EReal :=
  (Finset.univ : Finset (Fin 16)).fold max (Ideal.ofBits .f32 0xFF800000#32) r

/-- The logarithm of the softmax of a row at entry `j`: the entry less the row's maximum, less the logarithm of the sum of
    the exponentials of the entries so shifted. -/
def logSoftmax (r : Fin 16 → EReal) (j : Fin 16) : EReal :=
  (r j - rowMax r) - Ideal.log (∑ k : Fin 16, Ideal.exp (r k - rowMax r))

/-- The exponential and the logarithm of an array are taken entry by entry. -/
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- The block with the bias row added to each of its rows. -/
def biased (b : Vec Ideal S16 .f32) (x : Vec Ideal S4000x16 .f32) : FVec Ideal S4000x16 .f32 :=
  addf (shapeCast S4000x16 x shapeCasts_S4000x16_S4000x16)
    (broadcastTo S4000x16 (shapeCast S1x16 (shapeCast S1x16 b shapeCasts_S16_S1x16) shapeCasts_S1x16_S1x16) broadcasts_S1x16_S4000x16)

/-- Its entry (p, k) is the block's entry plus the bias's entry k. -/
theorem biased_apply (b : Vec Ideal S16 .f32) (x : Vec Ideal S4000x16 .f32) (p : Fin 4000) (k : Fin 16) :
    biased b x (ix2 p k) = x (ix2 p k) + b (ix1 k) := by
  unfold biased
  rw [addf_apply, shapeCast_self, Cert.LibRowBroadcast.broadcastTo_1b_ab_apply, shapeCast_self]
  refine congrArg (x (ix2 p k) + ·) ?_
  refine (shapeCast_addUnit_apply ![16] b shapeCasts_S16_S1x16 (ix2 (0 : Fin 1) k)).trans ?_
  exact congrArg b (funext fun a => by match a with | ⟨0, _⟩ => rfl)

/-- One value per row, carried along the sixteen entries of the row. -/
theorem col_apply (w : FVec Ideal S4000 .f32) (p : Fin 4000) (k : Fin 16) :
    broadcastTo S4000x16 (shapeCast S4000x1 w shapeCasts_S4000_S4000x1) broadcasts_S4000x1_S4000x16 (ix2 p k) = w (ix1 p) :=
  (Cert.LibKeepdims.broadcastTo_a1_ab_apply _ broadcasts_S4000x1_S4000x16 p k).trans
    (Cert.LibKeepdims.shapeCast_a_a1_apply w shapeCasts_S4000_S4000x1 p 0)

/-- The same with the logarithm taken on the way. -/
theorem logcol_apply (w : FVec Ideal S4000 .f32) (p : Fin 4000) (k : Fin 16) :
    broadcastTo S4000x16 (log (shapeCast S4000x1 w shapeCasts_S4000_S4000x1)) broadcasts_S4000x1_S4000x16 (ix2 p k) = Ideal.log (w (ix1 p)) :=
  (Cert.LibKeepdims.broadcastTo_a1_ab_apply _ broadcasts_S4000x1_S4000x16 p k).trans
    ((log_apply _ _).trans (congrArg Ideal.log (Cert.LibKeepdims.shapeCast_a_a1_apply w shapeCasts_S4000_S4000x1 p 0)))

/-- The maximum over each row, at row p. -/
theorem max_row (v : FVec Ideal S4000x16 .f32) (p : Fin 4000) :
    multiReduction .maximumf [1] S4000 v 0xFF800000#32 reduces_S4000x16_S4000 (.inl rfl) rfl (ix1 p) = rowMax (fun k => v (ix2 p k)) :=
  Cert.LibRank3.max_last2 v 0xFF800000#32 reduces_S4000x16_S4000 (.inl rfl) rfl p

/-- The sum over each row, at row p. -/
theorem sum_row (v : FVec Ideal S4000x16 .f32) (p : Fin 4000) :
    multiReduction .add [1] S4000 v 0x00000000#32 reduces_S4000x16_S4000 (.inl rfl) rfl (ix1 p) = ∑ k : Fin 16, v (ix2 p k) :=
  Cert.LibRank3.sum_last2 v 0x00000000#32 reduces_S4000x16_S4000 (.inl rfl) rfl p

/-- An array less, in each row, the row's maximum. -/
def shifted (v : FVec Ideal S4000x16 .f32) : FVec Ideal S4000x16 .f32 :=
  subf v (broadcastTo S4000x16 (shapeCast S4000x1
    (multiReduction .maximumf [1] S4000 v 0xFF800000#32 reduces_S4000x16_S4000 (.inl rfl) rfl) shapeCasts_S4000_S4000x1) broadcasts_S4000x1_S4000x16)

theorem shifted_apply (v : FVec Ideal S4000x16 .f32) (p : Fin 4000) (k : Fin 16) :
    shifted v (ix2 p k) = v (ix2 p k) - rowMax (fun k => v (ix2 p k)) := by
  unfold shifted
  rw [subf_apply, col_apply, max_row]

/-- The shifted array less, in each row, the logarithm of the sum of the row's exponentials: its entry (p, j) is the
    log-softmax of row p at j. -/
theorem core_apply (v : FVec Ideal S4000x16 .f32) (p : Fin 4000) (j : Fin 16) :
    subf (shifted v) (broadcastTo S4000x16 (log (shapeCast S4000x1
        (multiReduction .add [1] S4000 (exp (shifted v)) 0x00000000#32 reduces_S4000x16_S4000 (.inl rfl) rfl) shapeCasts_S4000_S4000x1))
      broadcasts_S4000x1_S4000x16) (ix2 p j)
      = logSoftmax (fun k => v (ix2 p k)) j := by
  rw [subf_apply, shifted_apply, logcol_apply, sum_row]
  unfold logSoftmax
  refine congrArg (fun s => v (ix2 p j) - rowMax (fun k => v (ix2 p k)) - Ideal.log s) (Finset.sum_congr rfl fun k _ => ?_)
  rw [exp_apply, shifted_apply]

/-- Entry (p, j) of the body's result: the log-softmax, at j, of row p of the block with the bias added. -/
theorem pay_apply (b : Vec Ideal S16 .f32) (x : Vec Ideal S4000x16 .f32) (p : Fin 4000) (j : Fin 16) :
    k3_pay1 b x (ix2 p j) = logSoftmax (fun k => x (ix2 p k) + b (ix1 k)) j := by
  unfold k3_pay1
  refine (core_apply (biased b x) p j).trans ?_
  exact congrArg (logSoftmax · j) (funext fun k => biased_apply b x p k)

/-- A host-side reduction with the maximum over the rows of an array of sixteen columns, from the word of minus
    infinity: at row r it is the fold of the maximum over that row's sixteen entries. Any number of rows. -/
theorem hostMax_row {m : ℕ} (y : FVec Ideal ⟨2, ![m, 16]⟩ .f32)
    (h' : (⟨2, ![m, 16]⟩ : Shape).ReducesTo [1] (⟨1, ![m]⟩ : Shape)) (h : (⟨2, ![m, 16]⟩ : Shape).Reduces [1] (⟨1, ![m]⟩ : Shape))
    (hu : 0 < (⟨0, ![]⟩ : Shape).numel) (r : Fin m) :
    Host.reduce FloatOps.maximumf y (constant (F := Ideal) (⟨0, ![]⟩ : Shape) .f32 0xFF800000#32) h' hu (ix1 r)
      = rowMax (fun k => y (ix2 r k)) := by
  rw [Host.reduce_eq_fold_single FloatOps.maximumf y _ h' h hu]
  exact congrArg (fun f => Finset.fold max (Ideal.ofBits .f32 0xFF800000#32) f (Finset.univ : Finset (Fin 16)))
    (funext fun k => congrArg y (funext fun c => Fin.ext (by fin_cases c <;> rfl)))

/-- The reference's maximum over each row, read at row r. -/
theorem ref_max_apply (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal)) (r : Fin 100000) :
    Cert.ReferenceIdeal.Read.val_main_call1_v0 (F := Ideal) x0 x1 x2 x3 x4 x5 (ix1 r)
      = rowMax (fun k => Cert.ReferenceIdeal.Read.val_main_v76 (F := Ideal) x0 x1 x2 x3 x4 x5 (ix2 r k)) := by
  unfold Cert.ReferenceIdeal.Read.val_main_call1_v0 Cert.ReferenceIdeal.Read.val_main_call1_cst
  exact hostMax_row (m := 100000) (Cert.ReferenceIdeal.Read.val_main_v76 (F := Ideal) x0 x1 x2 x3 x4 x5) _ (by decide) _ r

/-- The stage the reference's log-softmax is applied to, at (r, k): the scattered sums plus the bias's entry k. -/
theorem ref_bias_apply (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal)) (r : Fin 100000) (k : Fin 16) :
    Cert.ReferenceIdeal.Read.val_main_v76 (F := Ideal) x0 x1 x2 x3 x4 x5 (ix2 r k)
      = Cert.ReferenceIdeal.Read.val_main_v73 (F := Ideal) x0 x1 x2 x3 x4 (ix2 r k) + x5 (ix1 k) := by
  have hi : Cert.ReferenceIdeal.Read.idx_main_v74 (Cert.ReferenceIdeal.Read.idx_main_v75 (ix2 r k)) = ix1 k :=
    funext fun a => by match a with | ⟨0, _⟩ => rfl
  rw [Cert.ReferenceIdeal.Read.val_main_v76_apply, Cert.ReferenceIdeal.Read.val_main_v75_apply,
    Cert.ReferenceIdeal.Read.val_main_v74_apply, hi, Ideal.addf_def]

/-- The reference's result at (r, j): the log-softmax, at j, of row r of the stage it is applied to. The reference takes
    the larger of the initial word's value and the row's fold; the fold starts from that same value, so it is at least
    that value, and the larger of the two is the fold itself. And the reference adds the sum of the exponentials to the
    value of the zero word, which is zero. -/
theorem ref_apply (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal)) (r : Fin 100000) (j : Fin 16) :
    Cert.ReferenceIdeal.Read.val_main_v77 (F := Ideal) x0 x1 x2 x3 x4 x5 (ix2 r j)
      = logSoftmax (fun k => Cert.ReferenceIdeal.Read.val_main_v76 (F := Ideal) x0 x1 x2 x3 x4 x5 (ix2 r k)) j := by
  have hM : ∀ k : Fin 16, Cert.ReferenceIdeal.Read.val_main_call1_v4 (F := Ideal) x0 x1 x2 x3 x4 x5 (ix2 r k)
      = rowMax (fun k => Cert.ReferenceIdeal.Read.val_main_v76 (F := Ideal) x0 x1 x2 x3 x4 x5 (ix2 r k)) := by
    intro k
    have hi : Cert.ReferenceIdeal.Read.idx_main_call1_v3 (Cert.ReferenceIdeal.Read.idx_main_call1_v4 (ix2 r k)) = ix1 r :=
      funext fun a => by match a with | ⟨0, _⟩ => rfl
    rw [Cert.ReferenceIdeal.Read.val_main_call1_v4_apply, Cert.ReferenceIdeal.Read.val_main_call1_v3_apply,
      Cert.ReferenceIdeal.Read.val_main_call1_v2_apply, Cert.ReferenceIdeal.Read.val_main_call1_v1_apply,
      Cert.ReferenceIdeal.Read.val_main_call1_cst_0_apply, hi, ref_max_apply, Ideal.maximumf_def, Ideal.ofBits_def]
    exact max_eq_right ((Finset.le_fold_max _).2 (Or.inl le_rfl))
  have h5 : ∀ k : Fin 16, Cert.ReferenceIdeal.Read.val_main_call1_v5 (F := Ideal) x0 x1 x2 x3 x4 x5 (ix2 r k)
      = Cert.ReferenceIdeal.Read.val_main_v76 (F := Ideal) x0 x1 x2 x3 x4 x5 (ix2 r k)
        - rowMax (fun k => Cert.ReferenceIdeal.Read.val_main_v76 (F := Ideal) x0 x1 x2 x3 x4 x5 (ix2 r k)) := by
    intro k
    rw [Cert.ReferenceIdeal.Read.val_main_call1_v5_apply, hM, Ideal.subf_def]
  have hs : ∀ k : Fin 16, Cert.ReferenceIdeal.Read.val_main_call1_v6 (F := Ideal) x0 x1 x2 x3 x4 x5
        (Cert.ReferenceIdeal.Read.idx_main_call1_v7 (ix1 r) k)
      = Ideal.exp (Cert.ReferenceIdeal.Read.val_main_v76 (F := Ideal) x0 x1 x2 x3 x4 x5 (ix2 r k)
        - rowMax (fun k => Cert.ReferenceIdeal.Read.val_main_v76 (F := Ideal) x0 x1 x2 x3 x4 x5 (ix2 r k))) := by
    intro k
    have hk : Cert.ReferenceIdeal.Read.idx_main_call1_v7 (ix1 r) k = ix2 r k :=
      funext fun a => by match a with | ⟨0, _⟩ => rfl | ⟨1, _⟩ => rfl
    rw [hk, Cert.ReferenceIdeal.Read.val_main_call1_v6_apply, h5, Ideal.hostUnary_exp_def]
  have hi : Cert.ReferenceIdeal.Read.idx_main_call1_v8 (Cert.ReferenceIdeal.Read.idx_main_call1_v10 (ix2 r j)) = ix1 r :=
    funext fun a => by match a with | ⟨0, _⟩ => rfl
  rw [Cert.ReferenceIdeal.Read.val_main_v77_apply, h5, Cert.ReferenceIdeal.Read.val_main_call1_v10_apply,
    Cert.ReferenceIdeal.Read.val_main_call1_v9_apply, Cert.ReferenceIdeal.Read.val_main_call1_v8_apply, hi,
    Cert.ReferenceIdeal.Read.val_main_call1_v7_apply, Finset.sum_congr rfl fun k _ => hs k,
    Cert.ReferenceIdeal.Read.val_main_call1_cst_1_apply, Ideal.ofBits_def, Ideal.ofBits_zero_f32, zero_add,
    Ideal.subf_def, Ideal.hostUnary_log_def]
  rfl

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the input block and the output block sit at row block t, the bias is whole. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0)

/-- What the write-back at point t takes from a staging buffer, at (p, q), is the buffer's entry (p, q): the blocks are whole. -/
theorem cut_apply (t : Fin cfg3.N) (G : S4000x16.Idx → EReal) (p : Fin 4000) (q : Fin 16) :
    (cfg3.win 2).cut (grid3.coords t) G (ix2 p q) = G (ix2 p q) := rfl

/-- Entry (p, q) of the output's block t is the array's entry (4000·t + p, q). -/
theorem emb_out (t : Fin cfg3.N) (p : Fin 4000) (q : Fin 16) (hr : 4000 * t.val + p.val < 100000) :
    ((cfg3.win 2).blk t).view.emb (ix2 p q) = ix2 (⟨4000 * t.val + p.val, hr⟩ : Fin 100000) q := by
  obtain ⟨e0, e1, e2, e3, e4⟩ := idx_facts t
  funext a; apply Fin.ext
  match a with
  | ⟨0, _⟩ => show win3_2.index t (0 : Fin 2) * 4000 + 1 * p.val = 4000 * t.val + p.val; omega
  | ⟨1, _⟩ => show win3_2.index t (1 : Fin 2) * 16 + 1 * q.val = q.val; omega

/-- Entry (p, k) of the input's block t is the array's entry (4000·t + p, k). -/
theorem emb_in (t : Fin cfg3.N) (p : Fin 4000) (k : Fin 16) (hr : 4000 * t.val + p.val < 100000) :
    ((cfg3.win 0).blk t).view.emb (ix2 p k) = ix2 (⟨4000 * t.val + p.val, hr⟩ : Fin 100000) k := by
  obtain ⟨e0, e1, e2, e3, e4⟩ := idx_facts t
  funext a; apply Fin.ext
  match a with
  | ⟨0, _⟩ => show win3_0.index t (0 : Fin 2) * 4000 + 1 * p.val = 4000 * t.val + p.val; omega
  | ⟨1, _⟩ => show win3_0.index t (1 : Fin 2) * 16 + 1 * k.val = k.val; omega

/-- Entry k of the bias's block is the bias's entry k. -/
theorem emb_bias (t : Fin cfg3.N) (k : Fin 16) : ((cfg3.win 1).blk t).view.emb (ix1 k) = ix1 k := by
  obtain ⟨e0, e1, e2, e3, e4⟩ := idx_facts t
  funext a; apply Fin.ext
  match a with
  | ⟨0, _⟩ => show win3_1.index t (0 : Fin 1) * 16 + 1 * k.val = k.val; omega

/-- A whole array read through the output's block t, at (p, q). -/
theorem read_out (t : Fin cfg3.N) (f : S100000x16.Idx → EReal) (p : Fin 4000) (q : Fin 16) (hr : 4000 * t.val + p.val < 100000) :
    ((cfg3.win 2).blk t).view.read (Elt Ideal) f (ix2 p q) = f (ix2 (⟨4000 * t.val + p.val, hr⟩ : Fin 100000) q) :=
  congrArg f (emb_out t p q hr)

/-- What point t writes back is block t of the reference's log-softmax stage, when the launch finds the scattered sums
    in its input array and the bias in its bias array: row p of the block is row 4000·t + p of the array, the body adds
    the bias to it as the reference's preceding stage does, and both sides take the log-softmax of that row. -/
theorem flushed_eq (c : Dev nD) (t : Fin cfg3.N) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal))
    (hA : V c main_v55 = Cert.ReferenceIdeal.Read.val_main_v73 (F := Ideal) x0 x1 x2 x3 x4)
    (hb : V c main_arg5 = x5) :
    (dat3 V c).flushed 2 t = ((cfg3.win 2).blk t).view.read (Elt Ideal)
      (Cert.ReferenceIdeal.Read.val_main_v77 (F := Ideal) x0 x1 x2 x3 x4 x5) := by
  show (cfg3.win 2).cut (grid3.coords t) ((dat3 V c).after 2 t) = _
  rw [after3_2]
  unfold out3_2
  rw [View.canon_unit_zero hz2]
  simp only [View.ld_unit_zero (S := S4000x16) hz2, View.ld_unit_zero (S := S16) hz1]
  have ht : t.val < 25 := lt_of_lt_of_eq t.isLt N_3
  funext j
  obtain ⟨p, q, rfl⟩ : ∃ (p : Fin 4000) (q : Fin 16), j = ix2 p q := ⟨j 0, j 1, eq_ix2 j⟩
  have hr : 4000 * t.val + p.val < 100000 := by have := p.isLt; omega
  refine (cut_apply t _ p q).trans ?_
  refine Eq.trans ?_ (read_out t _ p q hr).symm
  refine (pay_apply _ _ p q).trans ?_
  refine Eq.trans ?_ (ref_apply x0 x1 x2 x3 x4 x5 ⟨4000 * t.val + p.val, hr⟩ q).symm
  refine congrArg (logSoftmax · q) (funext fun k => ?_)
  have hx : (iblk3 V c 0 t (ix2 p k) : EReal)
      = Cert.ReferenceIdeal.Read.val_main_v73 (F := Ideal) x0 x1 x2 x3 x4 (ix2 (⟨4000 * t.val + p.val, hr⟩ : Fin 100000) k) :=
    (congrArg (V c main_v55) (emb_in t p k hr)).trans (congrFun hA _)
  have hy : (iblk3 V c 1 t (ix1 k) : EReal) = x5 (ix1 k) :=
    (congrArg (V c main_arg5) (emb_bias t k)).trans (congrFun hb _)
  refine Eq.trans ?_ (ref_bias_apply x0 x1 x2 x3 x4 x5 ⟨4000 * t.val + p.val, hr⟩ k).symm
  exact congrArg₂ (fun a b : EReal => a + b) hx hy

/-- An index is in point t's output block iff each coordinate is in the block's range on its axis. -/
theorem mem_blk (t : Fin cfg3.N) (i : S100000x16.Idx) :
    i ∈ ((cfg3.win 2).blk t).view.set ↔ ∀ a : Fin 2, win3_2.index t a * S4000x16.size a ≤ (i a).val ∧ (i a).val < win3_2.index t a * S4000x16.size a + S4000x16.size a := by
  show i ∈ ((View.whole main_v56).slice (win3_2.rect t)).set ↔ _
  rw [View.set_slice_whole, Rect.mem_set_unit]
  exact Iff.rfl

/-- The 25 output blocks tile the array: row r lies in the block of point r / 4000. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 25 := N_3
  let t : Fin cfg3.N := ⟨(i 0).val / 4000, by rw [hN]; omega⟩
  obtain ⟨e0, e1, e2, e3, e4⟩ := idx_facts t
  have ht : t.val = (i 0).val / 4000 := rfl
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 16 ≤ (i 1).val ∧ (i 1).val < win3_2.index t (1 : Fin 2) * 16 + 16; omega

/-- After the launch the output array is the reference's log-softmax stage, when the launch finds the scattered sums in
    its input array and the bias in its bias array. -/
theorem array_eq (c : Dev nD) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal))
    (hA : V c main_v55 = Cert.ReferenceIdeal.Read.val_main_v73 (F := Ideal) x0 x1 x2 x3 x4)
    (hb : V c main_arg5 = x5) :
    (dat3 V c).arrAt 2 cfg3.N = Cert.ReferenceIdeal.Read.val_main_v77 (F := Ideal) x0 x1 x2 x3 x4 x5 :=
  (dat3 V c).arrAt_eq_of_cover 2 _ (fun t _ => flushed_eq V c t x0 x1 x2 x3 x4 x5 hA hb) cover

end Cert.KernelIdeal.LogSoftmax

end
-- ==== Proof.ChainB.lean ====
/-
  The kernel program's buffers, boundary by boundary: the second half.

  After the second launch the hidden layer holds the rectified, biased aggregate; after the third its product with
  the second weight array; the third host stretch aggregates that product over the edges exactly as the second
  stretch aggregated the first product, with the same per-edge scale; the last launch adds the bias and takes the
  row-wise log-softmax.  Each boundary's buffer is the reference's stage of the six argument arrays, so the result
  buffer at the return is the reference's last stage.
-/
import proofs.«117803_j45509473469206_1_alg».proof.Proof.ChainA
import proofs.«117803_j45509473469206_1_alg».proof.Proof.BiasRelu
import proofs.«117803_j45509473469206_1_alg».proof.Proof.Product2
import proofs.«117803_j45509473469206_1_alg».proof.Proof.LogSoftmax

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the second launch -/

/-- The hidden layer: the aggregate plus the bias, rectified. -/
theorem W4_v41 (c : Dev nD) : W4 m ρ c (Proc.devRef .tc main_v41) = val_main_v44 (F := Ideal) (m ((c : Thread nD τ).loc main_arg0)) (m ((c : Thread nD τ).loc main_arg1)) (m ((c : Thread nD τ).loc main_arg2)) (m ((c : Thread nD τ).loc main_arg3)) :=
  (W4_arr m ρ c 2).trans (Cert.KernelIdeal.BiasRelu.array_eq (V3 m ρ) c _ _ _ _ (W3_v40 m ρ c) (W3_arg3 m ρ c))

theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)

theorem W4_v6 (c : Dev nD) : W4 m ρ c (Proc.devRef .tc main_v6) = val_main_v6 (F := Ideal) (m ((c : Thread nD τ).loc main_arg1)) :=
  (W4_of_ne m ρ c main_v6 (by decide)).trans (W3_v6 m ρ c)

theorem W4_v26 (c : Dev nD) : W4 m ρ c (Proc.devRef .tc main_v26) = val_main_v27 (F := Ideal) (m ((c : Thread nD τ).loc main_arg1)) :=
  (W4_of_ne m ρ c main_v26 (by decide)).trans (W3_v26 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

/-! ## After the third launch -/

/-- The hidden layer times the second weight array. -/
theorem W5_v42 (c : Dev nD) : W5 m ρ c (Proc.devRef .tc main_v42) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans (Cert.KernelIdeal.Product2.array_eq (V4 m ρ) c _ _ _ _ _ (W4_v41 m ρ c) (W4_arg4 m ρ c))

theorem W5_v3 (c : Dev nD) : W5 m ρ c (Proc.devRef .tc main_v3) = val_main_v3 (F := Ideal) (m ((c : Thread nD τ).loc main_arg1)) :=
  (W5_of_ne m ρ c main_v3 (by decide)).trans (W4_v3 m ρ c)

theorem W5_v6 (c : Dev nD) : W5 m ρ c (Proc.devRef .tc main_v6) = val_main_v6 (F := Ideal) (m ((c : Thread nD τ).loc main_arg1)) :=
  (W5_of_ne m ρ c main_v6 (by decide)).trans (W4_v6 m ρ c)

theorem W5_v26 (c : Dev nD) : W5 m ρ c (Proc.devRef .tc main_v26) = val_main_v27 (F := Ideal) (m ((c : Thread nD τ).loc main_arg1)) :=
  (W5_of_ne m ρ c main_v26 (by decide)).trans (W4_v26 m ρ c)

theorem W5_arg5 (c : Dev nD) : W5 m ρ c (Proc.devRef .tc main_arg5) = (m ((c : Thread nD τ).loc main_arg5)) :=
  (W5_of_ne m ρ c main_arg5 (by decide)).trans (W4_arg5 m ρ c)

/-! ## After the third host stretch -/

/-- The second aggregate.  The reference computes the per-edge scale a second time, from the same inverse square
    roots gathered at the same indices: the same function of the edge array. -/
theorem W6_v55 (c : Dev nD) : W6 m ρ c (Proc.devRef .tc main_v55) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v55) = _
  after_results_simp
  rw [W5_v42 m ρ c, W5_v3 m ρ c, W5_v6 m ρ c, W5_v26 m ρ c]
  rfl

theorem W6_arg5 (c : Dev nD) : W6 m ρ c (Proc.devRef .tc main_arg5) = (m ((c : Thread nD τ).loc main_arg5)) := by
  show StableHlo.after hostOps3 (W5 m ρ c) (Proc.devRef .tc main_arg5) = _
  after_results_simp
  exact W5_arg5 m ρ c

/-! ## After the last launch -/

/-- The result buffer at the return is the reference's last stage of the six argument arrays. -/
theorem W7_v56 (c : Dev nD) : W7 m ρ c (Proc.devRef .tc main_v56)
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans (Cert.KernelIdeal.LogSoftmax.array_eq (V6 m ρ) c _ _ _ _ _ _ (W6_v55 m ρ c) (W6_arg5 m ρ c))

end Cert.KernelIdeal.Chain

end
-- ==== Proof.RefValueA.lean ====
/-
  The reference program's buffers after its first 56 operations.

  The reference is a straight line of 110 host operations, so each buffer ends at the fold of the operations'
  results over the launch contents.  After the first 53 operations the first layer's biased aggregate, the two index
  vectors and the inverse square roots of the degrees are the stages of those names, read off the operations' composed
  term, which is the stage by definition.  The next three operations are the rectifier, written as a function of its
  own: its operations read and write their buffers through the identification of each buffer's contents with a
  tensor of the operation's type, which is the identity; removing those identifications one buffer at a time leaves
  the maximum of the biased aggregate and zero, the hidden layer.  A buffer these operations do not write keeps its
  contents.
-/
import proofs.«117803_j45509473469206_1_alg».proof.Proof.RefRunBase
import proofs.«117803_j45509473469206_1_alg».proof.Proof.RefRead
import Idealize.ShloMosaic.Lib.StableHlo.Run

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Running one list of operations after another is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- The buffers after the first 53 operations: through the first layer's biased aggregate. -/
def P1 : Valuation τ sig (Elt Ideal) := after ((ops (F := Ideal)).take 53) (launchContents m c)

theorem P1_v43 : P1 m c (Proc.devRef .tc main_v43) = val_main_v43 (F := Ideal) (m ((c.tc : Thread nD τ).loc main_arg0)) (m ((c.tc : Thread nD τ).loc main_arg1)) (m ((c.tc : Thread nD τ).loc main_arg2)) (m ((c.tc : Thread nD τ).loc main_arg3)) := by
  unfold P1
  simp only [ops, List.take_succ_cons, List.take_zero]
  after_results_simp
  rfl

theorem P1_v3 : P1 m c (Proc.devRef .tc main_v3) = val_main_v3 (F := Ideal) (m ((c.tc : Thread nD τ).loc main_arg1)) := by
  unfold P1
  simp only [ops, List.take_succ_cons, List.take_zero]
  after_results_simp
  rfl

theorem P1_v6 : P1 m c (Proc.devRef .tc main_v6) = val_main_v6 (F := Ideal) (m ((c.tc : Thread nD τ).loc main_arg1)) := by
  unfold P1
  simp only [ops, List.take_succ_cons, List.take_zero]
  after_results_simp
  rfl

theorem P1_v11 : P1 m c (Proc.devRef .tc main_v11) = val_main_v11 (F := Ideal) (m ((c.tc : Thread nD τ).loc main_arg1)) := by
  unfold P1
  simp only [ops, List.take_succ_cons, List.take_zero]
  after_results_simp
  rfl

theorem P1_arg4 : P1 m c (Proc.devRef .tc main_arg4) = (m ((c.tc : Thread nD τ).loc main_arg4)) := by
  unfold P1
  simp only [ops, List.take_succ_cons, List.take_zero]
  after_results_simp <;> rfl

theorem P1_arg5 : P1 m c (Proc.devRef .tc main_arg5) = (m ((c.tc : Thread nD τ).loc main_arg5)) := by
  unfold P1
  simp only [ops, List.take_succ_cons, List.take_zero]
  after_results_simp <;> rfl

/-- The buffers after the rectifier's three operations. -/
def P2 : Valuation τ sig (Elt Ideal) := after (((ops (F := Ideal)).drop 53).take 3) (P1 m c)

/-- The hidden layer: the larger of the biased aggregate and zero. -/
theorem P2_v44 : P2 m c (Proc.devRef .tc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) := by
  unfold P2
  simp only [ops, List.drop_succ_cons, List.drop_zero, List.take_succ_cons, List.take_zero]
  after_results_simp
  rw [P1_v43 m c]
  unfold val_main_v44
  generalize val_main_v43 (F := Ideal) (m ((c.tc : Thread nD τ).loc main_arg0)) (m ((c.tc : Thread nD τ).loc main_arg1)) (m ((c.tc : Thread nD τ).loc main_arg2)) (m ((c.tc : Thread nD τ).loc main_arg3)) = A
  have o_v44 : ∀ v : (⟨S100000x128, .f32⟩ : BufTy).Contents (Elt Ideal), (TRef.of (T := ⟨S100000x128, .f32⟩) main_v44).ofBuf (Val := Elt Ideal) v = v := fun _ => rfl
  have t_v44 : ∀ v : (⟨S100000x128, .f32⟩ : BufTy).Contents (Elt Ideal), (TRef.of (T := ⟨S100000x128, .f32⟩) main_v44).toBuf (Val := Elt Ideal) v = v := fun _ => rfl
  have o_v43 : ∀ v : (⟨S100000x128, .f32⟩ : BufTy).Contents (Elt Ideal), (TRef.of (T := ⟨S100000x128, .f32⟩) main_v43).ofBuf (Val := Elt Ideal) v = v := fun _ => rfl
  have t_v43 : ∀ v : (⟨S100000x128, .f32⟩ : BufTy).Contents (Elt Ideal), (TRef.of (T := ⟨S100000x128, .f32⟩) main_v43).toBuf (Val := Elt Ideal) v = v := fun _ => rfl
  have o_call0_v0 : ∀ v : (⟨S100000x128, .f32⟩ : BufTy).Contents (Elt Ideal), (TRef.of (T := ⟨S100000x128, .f32⟩) main_call0_v0).ofBuf (Val := Elt Ideal) v = v := fun _ => rfl
  have t_call0_v0 : ∀ v : (⟨S100000x128, .f32⟩ : BufTy).Contents (Elt Ideal), (TRef.of (T := ⟨S100000x128, .f32⟩) main_call0_v0).toBuf (Val := Elt Ideal) v = v := fun _ => rfl
  have o_call0_cst : ∀ v : (⟨S_, .f32⟩ : BufTy).Contents (Elt Ideal), (TRef.of (T := ⟨S_, .f32⟩) main_call0_cst).ofBuf (Val := Elt Ideal) v = v := fun _ => rfl
  have t_call0_cst : ∀ v : (⟨S_, .f32⟩ : BufTy).Contents (Elt Ideal), (TRef.of (T := ⟨S_, .f32⟩) main_call0_cst).toBuf (Val := Elt Ideal) v = v := fun _ => rfl
  rw [t_v44, o_v43, o_call0_v0, t_call0_v0, o_call0_cst, t_call0_cst]
  rfl

theorem P2_v3 : P2 m c (Proc.devRef .tc main_v3) = val_main_v3 (F := Ideal) (m ((c.tc : Thread nD τ).loc main_arg1)) := by
  unfold P2
  simp only [ops, List.drop_succ_cons, List.drop_zero, List.take_succ_cons, List.take_zero]
  after_results_simp
  exact P1_v3 m c

theorem P2_v6 : P2 m c (Proc.devRef .tc main_v6) = val_main_v6 (F := Ideal) (m ((c.tc : Thread nD τ).loc main_arg1)) := by
  unfold P2
  simp only [ops, List.drop_succ_cons, List.drop_zero, List.take_succ_cons, List.take_zero]
  after_results_simp
  exact P1_v6 m c

theorem P2_v11 : P2 m c (Proc.devRef .tc main_v11) = val_main_v11 (F := Ideal) (m ((c.tc : Thread nD τ).loc main_arg1)) := by
  unfold P2
  simp only [ops, List.drop_succ_cons, List.drop_zero, List.take_succ_cons, List.take_zero]
  after_results_simp
  exact P1_v11 m c

theorem P2_arg4 : P2 m c (Proc.devRef .tc main_arg4) = (m ((c.tc : Thread nD τ).loc main_arg4)) := by
  unfold P2
  simp only [ops, List.drop_succ_cons, List.drop_zero, List.take_succ_cons, List.take_zero]
  after_results_simp
  exact P1_arg4 m c

theorem P2_arg5 : P2 m c (Proc.devRef .tc main_arg5) = (m ((c.tc : Thread nD τ).loc main_arg5)) := by
  unfold P2
  simp only [ops, List.drop_succ_cons, List.drop_zero, List.take_succ_cons, List.take_zero]
  after_results_simp
  exact P1_arg5 m c

end Cert.ReferenceIdeal.RefValue

end
-- ==== Proof.RefValue.lean ====
/-
  The reference program's result buffer is its last stage of the six argument arrays.

  After the hidden layer, 39 operations give the second layer's biased aggregate: the product with the second weight
  array, gathered at the sources, scaled per edge — the inverse square roots of the degrees gathered again at the same
  indices — summed into the targets, plus the bias.  The last 15 operations are the row-wise log-softmax, written as a
  function of its own like the rectifier; with the identifications of buffers and tensors removed they are the
  stage's own operations.  The four steps one after the other are the whole line, so the result buffer at the return
  is the last stage.
-/
import proofs.«117803_j45509473469206_1_alg».proof.Proof.RefValueA

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

/-- The buffers after the next 39 operations: through the second layer's biased aggregate. -/
def P3 : Valuation τ sig (Elt Ideal) := after (((ops (F := Ideal)).drop 56).take 39) (P2 m c)

/-- The second layer's biased aggregate. -/
theorem P3_v76 : P3 m c (Proc.devRef .tc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold P3
  simp only [ops, List.drop_succ_cons, List.drop_zero, List.take_succ_cons, List.take_zero]
  after_results_simp
  rw [P2_v44 m c, P2_v3 m c, P2_v6 m c, P2_v11 m c, P2_arg4 m c, P2_arg5 m c]
  rfl

/-- The four steps, one after the other, are the whole line of operations. -/
theorem after_ops : after (ops (F := Ideal)) (launchContents m c) = after ((ops (F := Ideal)).drop 95) (P3 m c) := by
  unfold P3 P2 P1
  rw [← after_append, ← after_append, ← after_append]
  refine congrArg (fun l => after l (launchContents m c)) ?_
  simp only [ops, List.take_succ_cons, List.take_zero, List.drop_succ_cons, List.drop_zero, List.cons_append, List.nil_append]

/-- The reference's result buffer at the return is its last stage of the six argument arrays. -/
theorem result_eq : after (ops (F := Ideal)) (launchContents m c) (Proc.devRef .tc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops m c]
  simp only [ops, List.drop_succ_cons, List.drop_zero]
  after_results_simp
  rw [P3_v76 m c]
  unfold val_main_v77 val_main_call1_v10 val_main_call1_v9 val_main_call1_v8 val_main_call1_v7 val_main_call1_v6 val_main_call1_v5 val_main_call1_v4 val_main_call1_v3 val_main_call1_v2 val_main_call1_v0
  generalize val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = A
  have o_call1_cst : ∀ v : (⟨S_, .f32⟩ : BufTy).Contents (Elt Ideal), (TRef.of (T := ⟨S_, .f32⟩) main_call1_cst).ofBuf (Val := Elt Ideal) v = v := fun _ => rfl
  have t_call1_cst : ∀ v : (⟨S_, .f32⟩ : BufTy).Contents (Elt Ideal), (TRef.of (T := ⟨S_, .f32⟩) main_call1_cst).toBuf (Val := Elt Ideal) v = v := fun _ => rfl
  have o_call1_v0 : ∀ v : (⟨S100000, .f32⟩ : BufTy).Contents (Elt Ideal), (TRef.of (T := ⟨S100000, .f32⟩) main_call1_v0).ofBuf (Val := Elt Ideal) v = v := fun _ => rfl
  have t_call1_v0 : ∀ v : (⟨S100000, .f32⟩ : BufTy).Contents (Elt Ideal), (TRef.of (T := ⟨S100000, .f32⟩) main_call1_v0).toBuf (Val := Elt Ideal) v = v := fun _ => rfl
  have o_call1_cst_0 : ∀ v : (⟨S_, .f32⟩ : BufTy).Contents (Elt Ideal), (TRef.of (T := ⟨S_, .f32⟩) main_call1_cst_0).ofBuf (Val := Elt Ideal) v = v := fun _ => rfl
  have t_call1_cst_0 : ∀ v : (⟨S_, .f32⟩ : BufTy).Contents (Elt Ideal), (TRef.of (T := ⟨S_, .f32⟩) main_call1_cst_0).toBuf (Val := Elt Ideal) v = v := fun _ => rfl
  have o_call1_v1 : ∀ v : (⟨S100000, .f32⟩ : BufTy).Contents (Elt Ideal), (TRef.of (T := ⟨S100000, .f32⟩) main_call1_v1).ofBuf (Val := Elt Ideal) v = v := fun _ => rfl
  have t_call1_v1 : ∀ v : (⟨S100000, .f32⟩ : BufTy).Contents (Elt Ideal), (TRef.of (T := ⟨S100000, .f32⟩) main_call1_v1).toBuf (Val := Elt Ideal) v = v := fun _ => rfl
  have o_call1_v2 : ∀ v : (⟨S100000, .f32⟩ : BufTy).Contents (Elt Ideal), (TRef.of (T := ⟨S100000, .f32⟩) main_call1_v2).ofBuf (Val := Elt Ideal) v = v := fun _ => rfl
  have t_call1_v2 : ∀ v : (⟨S100000, .f32⟩ : BufTy).Contents (Elt Ideal), (TRef.of (T := ⟨S100000, .f32⟩) main_call1_v2).toBuf (Val := Elt Ideal) v = v := fun _ => rfl
  have o_call1_v3 : ∀ v : (⟨S100000x1, .f32⟩ : BufTy).Contents (Elt Ideal), (TRef.of (T := ⟨S100000x1, .f32⟩) main_call1_v3).ofBuf (Val := Elt Ideal) v = v := fun _ => rfl
  have t_call1_v3 : ∀ v : (⟨S100000x1, .f32⟩ : BufTy).Contents (Elt Ideal), (TRef.of (T := ⟨S100000x1, .f32⟩) main_call1_v3).toBuf (Val := Elt Ideal) v = v := fun _ => rfl
  have o_call1_v4 : ∀ v : (⟨S100000x16, .f32⟩ : BufTy).Contents (Elt Ideal), (TRef.of (T := ⟨S100000x16, .f32⟩) main_call1_v4).ofBuf (Val := Elt Ideal) v = v := fun _ => rfl
  have t_call1_v4 : ∀ v : (⟨S100000x16, .f32⟩ : BufTy).Contents (Elt Ideal), (TRef.of (T := ⟨S100000x16, .f32⟩) main_call1_v4).toBuf (Val := Elt Ideal) v = v := fun _ => rfl
  have o_call1_v5 : ∀ v : (⟨S100000x16, .f32⟩ : BufTy).Contents (Elt Ideal), (TRef.of (T := ⟨S100000x16, .f32⟩) main_call1_v5).ofBuf (Val := Elt Ideal) v = v := fun _ => rfl
  have t_call1_v5 : ∀ v : (⟨S100000x16, .f32⟩ : BufTy).Contents (Elt Ideal), (TRef.of (T := ⟨S100000x16, .f32⟩) main_call1_v5).toBuf (Val := Elt Ideal) v = v := fun _ => rfl
  have o_call1_v6 : ∀ v : (⟨S100000x16, .f32⟩ : BufTy).Contents (Elt Ideal), (TRef.of (T := ⟨S100000x16, .f32⟩) main_call1_v6).ofBuf (Val := Elt Ideal) v = v := fun _ => rfl
  have t_call1_v6 : ∀ v : (⟨S100000x16, .f32⟩ : BufTy).Contents (Elt Ideal), (TRef.of (T := ⟨S100000x16, .f32⟩) main_call1_v6).toBuf (Val := Elt Ideal) v = v := fun _ => rfl
  have o_call1_cst_1 : ∀ v : (⟨S_, .f32⟩ : BufTy).Contents (Elt Ideal), (TRef.of (T := ⟨S_, .f32⟩) main_call1_cst_1).ofBuf (Val := Elt Ideal) v = v := fun _ => rfl
  have t_call1_cst_1 : ∀ v : (⟨S_, .f32⟩ : BufTy).Contents (Elt Ideal), (TRef.of (T := ⟨S_, .f32⟩) main_call1_cst_1).toBuf (Val := Elt Ideal) v = v := fun _ => rfl
  have o_call1_v7 : ∀ v : (⟨S100000, .f32⟩ : BufTy).Contents (Elt Ideal), (TRef.of (T := ⟨S100000, .f32⟩) main_call1_v7).ofBuf (Val := Elt Ideal) v = v := fun _ => rfl
  have t_call1_v7 : ∀ v : (⟨S100000, .f32⟩ : BufTy).Contents (Elt Ideal), (TRef.of (T := ⟨S100000, .f32⟩) main_call1_v7).toBuf (Val := Elt Ideal) v = v := fun _ => rfl
  have o_call1_v8 : ∀ v : (⟨S100000x1, .f32⟩ : BufTy).Contents (Elt Ideal), (TRef.of (T := ⟨S100000x1, .f32⟩) main_call1_v8).ofBuf (Val := Elt Ideal) v = v := fun _ => rfl
  have t_call1_v8 : ∀ v : (⟨S100000x1, .f32⟩ : BufTy).Contents (Elt Ideal), (TRef.of (T := ⟨S100000x1, .f32⟩) main_call1_v8).toBuf (Val := Elt Ideal) v = v := fun _ => rfl
  have o_call1_v9 : ∀ v : (⟨S100000x1, .f32⟩ : BufTy).Contents (Elt Ideal), (TRef.of (T := ⟨S100000x1, .f32⟩) main_call1_v9).ofBuf (Val := Elt Ideal) v = v := fun _ => rfl
  have t_call1_v9 : ∀ v : (⟨S100000x1, .f32⟩ : BufTy).Contents (Elt Ideal), (TRef.of (T := ⟨S100000x1, .f32⟩) main_call1_v9).toBuf (Val := Elt Ideal) v = v := fun _ => rfl
  have o_call1_v10 : ∀ v : (⟨S100000x16, .f32⟩ : BufTy).Contents (Elt Ideal), (TRef.of (T := ⟨S100000x16, .f32⟩) main_call1_v10).ofBuf (Val := Elt Ideal) v = v := fun _ => rfl
  have t_call1_v10 : ∀ v : (⟨S100000x16, .f32⟩ : BufTy).Contents (Elt Ideal), (TRef.of (T := ⟨S100000x16, .f32⟩) main_call1_v10).toBuf (Val := Elt Ideal) v = v := fun _ => rfl
  have o_v76 : ∀ v : (⟨S100000x16, .f32⟩ : BufTy).Contents (Elt Ideal), (TRef.of (T := ⟨S100000x16, .f32⟩) main_v76).ofBuf (Val := Elt Ideal) v = v := fun _ => rfl
  have t_v77 : ∀ v : (⟨S100000x16, .f32⟩ : BufTy).Contents (Elt Ideal), (TRef.of (T := ⟨S100000x16, .f32⟩) main_v77).toBuf (Val := Elt Ideal) v = v := fun _ => rfl
  simp only [o_call1_cst, t_call1_cst, o_call1_v0, t_call1_v0, o_call1_cst_0, t_call1_cst_0, o_call1_v1, t_call1_v1, o_call1_v2, t_call1_v2, o_call1_v3, t_call1_v3, o_call1_v4, t_call1_v4, o_call1_v5, t_call1_v5, o_call1_v6, t_call1_v6, o_call1_cst_1, t_call1_cst_1, o_call1_v7, t_call1_v7, o_call1_v8, t_call1_v8, o_call1_v9, t_call1_v9, o_call1_v10, t_call1_v10, o_v76, t_v77]
  rfl

end Cert.ReferenceIdeal.RefValue

end
-- ==== Proof.lean ====
/-
  The claim: the kernel program, its idealization and the reference each run and leave their arguments unchanged;
  the idealization rewrote nothing; and the idealized kernel and the idealized reference, from memories that agree on
  the six arguments, end with the same result.

  The program is a two-layer graph convolution.  From the edge array come the source and target index vectors (with
  a self loop per node appended) and a per-edge scale, the product of the inverse square roots of the target-degrees
  at the edge's two ends.  A layer multiplies the node features by a weight array, gathers the product's rows at the
  sources, scales them per edge, sums them into the rows of their targets and adds a bias; the first layer is
  rectified, the second ends in a row-wise log-softmax.  The kernel computes the two products, the bias + rectifier and
  the bias + log-softmax in four launches over 25 blocks of 4000 rows, and the gather / scale / scatter-add between
  them with the same host operations as the reference.  On the extended reals a rounding to bf16 is the identity and
  a product into a zero accumulator is the plain sum over the contracted axis, so each launch's output array is,
  block by block, the reference's stage of the same inputs, and the host stretches between the launches are the
  reference's own operations: following the buffers through the program, each holds the reference's stage of the six
  arguments, and so does the result.  No law that needs finiteness is used, so the precondition is never opened.
-/
import proofs.«117803_j45509473469206_1_alg».proof.Defs
import proofs.«117803_j45509473469206_1_alg».proof.Proof.Gen.Kernel
import proofs.«117803_j45509473469206_1_alg».proof.Proof.Gen.Kernel.Skeleton
import proofs.«117803_j45509473469206_1_alg».proof.Proof.Gen.Kernel.Launch
import proofs.«117803_j45509473469206_1_alg».proof.Proof.Gen.Kernel.Points
import proofs.«117803_j45509473469206_1_alg».proof.Proof.Gen.Kernel.Frame
import proofs.«117803_j45509473469206_1_alg».proof.Proof.Gen.KernelIdeal
import proofs.«117803_j45509473469206_1_alg».proof.Proof.Gen.KernelIdeal.Skeleton
import proofs.«117803_j45509473469206_1_alg».proof.Proof.Gen.KernelIdeal.Launch
import proofs.«117803_j45509473469206_1_alg».proof.Proof.Gen.KernelIdeal.Points
import proofs.«117803_j45509473469206_1_alg».proof.Proof.Gen.KernelIdeal.Frame
import proofs.«117803_j45509473469206_1_alg».proof.Proof.Gen.ReferenceIdeal
import proofs.«117803_j45509473469206_1_alg».proof.Proof.Gen.Pre_finite_inputs
import proofs.«117803_j45509473469206_1_alg».proof.Proof.ResultRun
import proofs.«117803_j45509473469206_1_alg».proof.Proof.ChainB
import proofs.«117803_j45509473469206_1_alg».proof.Proof.RefRunBase
import proofs.«117803_j45509473469206_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the reference's last stage of the six arguments in their result buffers. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W7_v56 m ρ c), (h c).2⟩)
      (Cert.KernelIdeal.ResultRun.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
